-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4x2048x4096 .f32) (main_arg1 : IVec S11008x4096 32) (main_arg2 : FVec F S11008 .f32) (main_arg3 : FVec F S11008 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4x2048x4096 : Shape := ⟨3, ![4, 2048, 4096]⟩
abbrev S11008x4096 : Shape := ⟨2, ![11008, 4096]⟩
abbrev S11008 : Shape := ⟨1, ![11008]⟩
abbrev S8192x4096 : Shape := ⟨2, ![8192, 4096]⟩
abbrev S11008x1 : Shape := ⟨2, ![11008, 1]⟩
abbrev S1x11008 : Shape := ⟨2, ![1, 11008]⟩
abbrev S688x4096 : Shape := ⟨2, ![688, 4096]⟩
abbrev S688x1 : Shape := ⟨2, ![688, 1]⟩
abbrev S8192x11008 : Shape := ⟨2, ![8192, 11008]⟩
abbrev S2048x4096 : Shape := ⟨2, ![2048, 4096]⟩
abbrev S256x4096 : Shape := ⟨2, ![256, 4096]⟩
abbrev S1x256 : Shape := ⟨2, ![1, 256]⟩
abbrev S2048x256 : Shape := ⟨2, ![2048, 256]⟩
abbrev S4x2048x11008 : Shape := ⟨3, ![4, 2048, 11008]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S8192x4096, .f32⟩
  | .hbm, ⟨6, _⟩ => ⟨S8192x4096, .bf16⟩
  | .hbm, ⟨7, _⟩ => ⟨S11008x1, .f32⟩
  | .hbm, ⟨8, _⟩ => ⟨S11008x1, .f32⟩
  | .hbm, ⟨9, _⟩ => ⟨S1x11008, .f32⟩
  | .hbm, ⟨10, _⟩ => ⟨S11008x4096, .bf16⟩
  | .hbm, ⟨11, _⟩ => ⟨S8192x11008, .f32⟩
  | .hbm, ⟨12, _⟩ => ⟨S4x2048x11008, .f32⟩
  | .local _ .vmem, ⟨0, _⟩ => ⟨S688x4096, .i32⟩
  | .local _ .vmem, ⟨1, _⟩ => ⟨S688x4096, .i32⟩
  | .local _ .vmem, ⟨2, _⟩ => ⟨S688x1, .f32⟩
  | .local _ .vmem, ⟨3, _⟩ => ⟨S688x1, .f32⟩
  | .local _ .vmem, ⟨4, _⟩ => ⟨S688x1, .f32⟩
  | .local _ .vmem, ⟨5, _⟩ => ⟨S688x1, .f32⟩
  | .local _ .vmem, ⟨6, _⟩ => ⟨S688x4096, .bf16⟩
  | .local _ .vmem, ⟨7, _⟩ => ⟨S688x4096, .bf16⟩
  | .local _ .vmem, ⟨8, _⟩ => ⟨S2048x4096, .bf16⟩
  | .local _ .vmem, ⟨9, _⟩ => ⟨S2048x4096, .bf16⟩
  | .local _ .vmem, ⟨10, _⟩ => ⟨S256x4096, .bf16⟩
  | .local _ .vmem, ⟨11, _⟩ => ⟨S256x4096, .bf16⟩
  | .local _ .vmem, ⟨12, _⟩ => ⟨S1x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  bitsLt_bf16_f32 : FTy.bits .bf16 < FTy.bits .f32
  shapeCasts_S11008_S11008x1 : S11008.ShapeCasts S11008x1
  shapeCasts_S11008_S1x11008 : S11008.ShapeCasts S1x11008
  inb_S688x4096_S688x4096_0_0 : ∀ a, (![0, 0] : Fin 2 → Nat) a + S688x4096.size a ≤ S688x4096.size a
  h_S688x4096 : 0 < S688x4096.numel
  inb_S688x1_S688x1_0_0 : ∀ a, (![0, 0] : Fin 2 → Nat) a + S688x1.size a ≤ S688x1.size a
  h_S688x1 : 0 < S688x1.numel
  shapeCasts_S688x1_S688x1 : S688x1.ShapeCasts S688x1
  broadcasts_S688x1_S688x4096 : S688x1.Broadcasts S688x4096
  packedbf16_S688x4096_S688x4096_0_0 : (Rect.unit (s := S688x4096) ![0, 0] S688x4096.size inb_S688x4096_S688x4096_0_0).PackedRows (EltTy.packing .bf16)
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S8192x11008_S4x2048x11008 : S8192x11008.ShapeCasts S4x2048x11008
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S688x4096.size a ≤ S11008x4096.size a
  hwx0_0 : ∀ i : grid0.Coords, EltTy.bits .i32 = 32 ∨ (Rect.block (s := S11008x4096) S688x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S688x1.size a ≤ S11008x1.size a
  hwx0_1 : ∀ i : grid0.Coords, EltTy.bits .f32 = 32 ∨ (Rect.block (s := S11008x1) S688x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S688x1.size a ≤ S11008x1.size a
  hwx0_2 : ∀ i : grid0.Coords, EltTy.bits .f32 = 32 ∨ (Rect.block (s := S11008x1) S688x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S688x4096.size a ≤ S11008x4096.size a
  hwx0_3 : ∀ i : grid0.Coords, EltTy.bits .bf16 = 32 ∨ (Rect.block (s := S11008x4096) S688x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x4096.size a
  hwx1_0 : ∀ i : grid1.Coords, EltTy.bits .bf16 = 32 ∨ (Rect.block (s := S8192x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x256.size a ≤ S8192x11008.size a
  hwx1_3 : ∀ i : grid1.Coords, EltTy.bits .f32 = 32 ∨ (Rect.block (s := S8192x11008) S2048x256.size (cc1_transform_3 i) (hinb1_3 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_arg1) S688x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S688x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S688x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S688x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008 : Shape := ⟨1, ![11008]⟩
abbrev S11008x1 : Shape := ⟨2, ![11008, 1]⟩
abbrev S4x2048x11008 : Shape := ⟨3, ![4, 2048, 11008]⟩
abbrev S1x1x11008 : Shape := ⟨3, ![1, 1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008, .f32⟩
  | .hbm, ⟨3, _⟩ => ⟨S11008, .f32⟩
  | .hbm, ⟨4, _⟩ => ⟨S11008, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S11008x1, .f32⟩
  | .hbm, ⟨10, _⟩ => ⟨S11008x4096, .f32⟩
  | .hbm, ⟨11, _⟩ => ⟨S11008x4096, .f32⟩
  | .hbm, ⟨12, _⟩ => ⟨S4x2048x11008, .f32⟩
  | .hbm, ⟨13, _⟩ => ⟨S1x1x11008, .f32⟩
  | .hbm, ⟨14, _⟩ => ⟨S4x2048x11008, .f32⟩
  | .hbm, ⟨15, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Pay0.lean ====
/-
  The dequantization pass at one element of a block: the block's integer at row `p`, column `q`, read as a real, minus the
  zero point of row `p`, times the scale of row `p` (both are columns of height 688, broadcast along the features).
-/
import proofs.«165721_j46548855554492_2_alg».proof.Proof.Gen.KernelIdeal.Skeleton
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-- A column of height 688 broadcast along 4096 features reads, at `(p, q)`, the column's entry `p`. -/
theorem col688_apply (v : Vec Ideal S688x1 .f32) (p : Fin 688) (q : Fin 4096) :
    broadcastTo S688x4096 v broadcasts_S688x1_S688x4096 (ix2 p q) = v (ix2 p (0 : Fin 1)) :=
  broadcastTo_apply v broadcasts_S688x1_S688x4096 (ix2 p q) (ix2 p (0 : Fin 1)) fun a => match a with
    | ⟨0, _⟩ => by show p.val = if (688 : Nat) = 1 then 0 else p.val; rw [if_neg (by decide)]
    | ⟨1, _⟩ => by show 0 = if (1 : Nat) = 1 then 0 else q.val; rw [if_pos rfl]

/-- The dequantization body's stored value at `(p, q)`. -/
theorem deqPay_apply (v0 : Vec Ideal S688x4096 .i32) (vz vs : Vec Ideal S688x1 .f32) (p : Fin 688) (q : Fin 4096) :
    k0_pay1 (F := Ideal) v0 vz vs (ix2 p q)
      = (FloatOps.sitofp (F := Ideal) .f32 (v0 (ix2 p q)) - vz (ix2 p (0 : Fin 1))) * vs (ix2 p (0 : Fin 1)) := by
  unfold k0_pay1
  simp only [shapeCast_self]
  show (FloatOps.sitofp (F := Ideal) .f32 (v0 (ix2 p q)) - broadcastTo S688x4096 vz broadcasts_S688x1_S688x4096 (ix2 p q))
      * broadcastTo S688x4096 vs broadcasts_S688x1_S688x4096 (ix2 p q) = _
  rw [col688_apply, col688_apply]

end Cert.KernelIdeal.Hand

end
-- ==== Proof.Spec.lean ====
/-
  The function both programs compute, over the extended reals: a linear layer whose weight matrix is stored as
  integers, with one scale and one zero point per output channel.

  For an output channel `o` and an input feature `k` the weight is
      W'(o, k) = (w(o, k) - zero(o)) * scale(o),
  the integer `w(o, k)` read as the real number it denotes, and the result at batch `b`, position `s`, channel `o` is
      (sum over k of x(b, s, k) * W'(o, k)) + bias(o).

  The two intermediate stages are named as well, because one program computes them as separate passes over
  re-laid-out arrays: the weight from a column of scales and a column of zero points (`deqCols`), and the product of the
  flattened rows `(b, s) -> 2048 * b + s` with the weights' transpose plus a row of biases (`rowsTimes`).
-/
import Idealize.ShloMosaic.PureOps.Ideal
import Idealize.ShloMosaic.Lib.ValueIdx

noncomputable section

namespace Cert.QLinear

open Idealize.ShloMosaic Idealize.ShloMosaic.ValueIdx
open scoped BigOperators

/-- The dequantized weight `(w - zero) * scale`, the scale and the zero point indexed by the output channel. -/
def deq (w : (⟨2, ![11008, 4096]⟩ : Shape).Idx → BitVec 32) (sc z : (⟨1, ![11008]⟩ : Shape).Idx → EReal) :
    (⟨2, ![11008, 4096]⟩ : Shape).Idx → EReal :=
  fun i => (FloatOps.sitofp (F := Ideal) .f32 (w i) - z (ix1 (i 0))) * sc (ix1 (i 0))

/-- The layer: every row of `x` against every dequantized weight row, summed over the features, plus the channel's bias. -/
def layer (x : (⟨3, ![4, 2048, 4096]⟩ : Shape).Idx → EReal) (w : (⟨2, ![11008, 4096]⟩ : Shape).Idx → BitVec 32)
    (sc z bi : (⟨1, ![11008]⟩ : Shape).Idx → EReal) : (⟨3, ![4, 2048, 11008]⟩ : Shape).Idx → EReal :=
  fun i => (∑ k : Fin 4096, x (ix3 (i 0) (i 1) k) * deq w sc z (ix2 (i 2) k)) + bi (ix1 (i 2))

/-- The dequantized weight from a COLUMN of scales and a column of zero points (arrays of shape [11008, 1]). -/
def deqCols (w : (⟨2, ![11008, 4096]⟩ : Shape).Idx → BitVec 32) (sc z : (⟨2, ![11008, 1]⟩ : Shape).Idx → EReal) :
    (⟨2, ![11008, 4096]⟩ : Shape).Idx → EReal :=
  fun i => (FloatOps.sitofp (F := Ideal) .f32 (w i) - z (ix2 (i 0) (0 : Fin 1))) * sc (ix2 (i 0) (0 : Fin 1))

/-- Flattened rows times the transpose of a weight matrix, plus a ROW of biases (an array of shape [1, 11008]). -/
def rowsTimes (xr : (⟨2, ![8192, 4096]⟩ : Shape).Idx → EReal) (wd : (⟨2, ![11008, 4096]⟩ : Shape).Idx → EReal)
    (bi : (⟨2, ![1, 11008]⟩ : Shape).Idx → EReal) : (⟨2, ![8192, 11008]⟩ : Shape).Idx → EReal :=
  fun i => (∑ k : Fin 4096, xr (ix2 (i 0) k) * wd (ix2 (i 1) k)) + bi (ix2 (0 : Fin 1) (i 1))

end Cert.QLinear

end
-- ==== Proof.Blocks0.lean ====
/-
  The dequantization pass, from blocks to the whole array. The pass walks 16 blocks of 688 weight rows; at block `t` it reads
  rows `688 t … 688 t + 687` of the integer weights, of the column of scales and of the column of zero points, and writes
  the same rows of the result. So what block `t` writes is block `t` of ONE function of the three arrays
  (`Cert.QLinear.deqCols`), the 16 blocks cover the 11008 rows, and the result array ends holding that function.
  Stated for any contents `V` of the buffers when the pass begins.
-/
import proofs.«165721_j46548855554492_2_alg».proof.Proof.Gen.KernelIdeal.Frame
import proofs.«165721_j46548855554492_2_alg».proof.Proof.Pay0
import proofs.«165721_j46548855554492_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Every window of the pass is at block row `t`, block column 0, at point `t`. -/
theorem deq_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The formula of one dequantized weight, at any row index of the two columns that is the weight's row. -/
theorem deqCols_at (A : S11008x4096.Idx → BitVec 32) (Sc Z : S11008x1.Idx → EReal) (i : S11008x4096.Idx) (iz is : S11008x1.Idx)
    (hz0 : (iz 0).val = (i 0).val) (hz1 : (iz 1).val = 0) (hs0 : (is 0).val = (i 0).val) (hs1 : (is 1).val = 0) :
    (FloatOps.sitofp (F := Ideal) .f32 (A i) - Z iz) * Sc is = Cert.QLinear.deqCols A Sc Z i := by
  have ez : iz = ix2 (i 0) (0 : Fin 1) := funext fun a => Fin.ext (by
    match a with
    | ⟨0, _⟩ => exact hz0
    | ⟨1, _⟩ => exact hz1)
  have es : is = ix2 (i 0) (0 : Fin 1) := funext fun a => Fin.ext (by
    match a with
    | ⟨0, _⟩ => exact hs0
    | ⟨1, _⟩ => exact hs1)
  rw [ez, es]
  rfl

/-- What point `t` writes back is block `t` of the dequantized weights of the arrays as the pass finds them. -/
theorem deq_flushed (c : Dev nD) (t : Fin cfg0.N) :
    (dat0 V c).flushed 3 t
      = ((cfg0.win 3).blk t).view.read (Elt Ideal) (Cert.QLinear.deqCols (V c main_arg1) (V c main_v2) (V c main_v3)) := by
  show (cfg0.win 3).cut (grid0.coords t) ((dat0 V c).after 3 t) = _
  rw [after0_3]
  unfold out0_3
  rw [View.canon_unit_zero zero_offsets]
  simp only [View.ld_unit_zero (S := S688x4096) zero_offsets, View.ld_unit_zero (S := S688x1) zero_offsets]
  obtain ⟨e00, e01, e10, e11, e20, e21, e30, e31⟩ := deq_index t
  funext j
  obtain ⟨p, q, rfl⟩ : ∃ (p : Fin 688) (q : Fin 4096), j = ix2 p q := ⟨j 0, j 1, eq_ix2 j⟩
  refine (deqPay_apply _ _ _ p q).trans ?_
  show (FloatOps.sitofp (F := Ideal) .f32 (V c main_arg1 (((cfg0.win 0).blk t).view.emb (ix2 p q)))
        - V c main_v3 (((cfg0.win 2).blk t).view.emb (ix2 p (0 : Fin 1))))
      * V c main_v2 (((cfg0.win 1).blk t).view.emb (ix2 p (0 : Fin 1)))
    = Cert.QLinear.deqCols (V c main_arg1) (V c main_v2) (V c main_v3) (((cfg0.win 3).blk t).view.emb (ix2 p q))
  have h0 : ((cfg0.win 0).blk t).view.emb (ix2 p q) = ((cfg0.win 3).blk t).view.emb (ix2 p q) := by
    funext a; apply Fin.ext
    match a with
    | ⟨0, _⟩ => show win0_0.index t (0 : Fin 2) * 688 + 1 * p.val = win0_3.index t (0 : Fin 2) * 688 + 1 * p.val; omega
    | ⟨1, _⟩ => show win0_0.index t (1 : Fin 2) * 4096 + 1 * q.val = win0_3.index t (1 : Fin 2) * 4096 + 1 * q.val; omega
  rw [h0]
  refine deqCols_at _ _ _ _ _ _ ?_ ?_ ?_ ?_
  · show win0_2.index t (0 : Fin 2) * 688 + 1 * p.val = win0_3.index t (0 : Fin 2) * 688 + 1 * p.val; omega
  · show win0_2.index t (1 : Fin 2) * 1 + 1 * 0 = 0; omega
  · show win0_1.index t (0 : Fin 2) * 688 + 1 * p.val = win0_3.index t (0 : Fin 2) * 688 + 1 * p.val; omega
  · show win0_1.index t (1 : Fin 2) * 1 + 1 * 0 = 0; omega

/-- An index of the result is in point `t`'s block iff each coordinate is in the block's range on its axis. -/
theorem deq_mem_blk (t : Fin cfg0.N) (i : S11008x4096.Idx) :
    i ∈ ((cfg0.win 3).blk t).view.set ↔ ∀ a : Fin 2, win0_3.index t a * S688x4096.size a ≤ (i a).val ∧ (i a).val < win0_3.index t a * S688x4096.size a + S688x4096.size a := by
  show i ∈ ((View.whole main_v5).slice (win0_3.rect t)).set ↔ _
  rw [View.set_slice_whole, Rect.mem_set_unit]
  exact Iff.rfl

/-- Row `r` of the result is in the block of point `r / 688`. -/
theorem deq_cover (i : S11008x4096.Idx) : ∃ t : Fin cfg0.N, (cfg0.win 3).flush t = true ∧ i ∈ ((cfg0.win 3).blk t).view.set := by
  have hi0 : (i 0).val < 11008 := (i 0).isLt
  have hi1 : (i 1).val < 4096 := (i 1).isLt
  have hN : cfg0.N = 16 := N_0
  refine ⟨⟨(i 0).val / 688, by rw [hN]; omega⟩, flush0_3 _, ?_⟩
  rw [deq_mem_blk]
  obtain ⟨-, -, -, -, -, -, e30, e31⟩ := deq_index ⟨(i 0).val / 688, by rw [hN]; omega⟩
  intro a
  match a with
  | ⟨0, _⟩ => show win0_3.index _ (0 : Fin 2) * 688 ≤ (i 0).val ∧ (i 0).val < win0_3.index _ (0 : Fin 2) * 688 + 688
              rw [e30]; show (i 0).val / 688 * 688 ≤ (i 0).val ∧ (i 0).val < (i 0).val / 688 * 688 + 688; omega
  | ⟨1, _⟩ => show win0_3.index _ (1 : Fin 2) * 4096 ≤ (i 1).val ∧ (i 1).val < win0_3.index _ (1 : Fin 2) * 4096 + 4096
              rw [e31]; omega

/-- The result array after the pass: the dequantized weights of the arrays as the pass finds them. -/
theorem deq_final (c : Dev nD) :
    (dat0 V c).arrAt 3 cfg0.N = Cert.QLinear.deqCols (V c main_arg1) (V c main_v2) (V c main_v3) :=
  (dat0 V c).arrAt_eq_of_cover 3 _ (fun t _ => deq_flushed V c t) deq_cover

end Cert.KernelIdeal.Hand

end
-- ==== Proof.Pay1.lean ====
/-
  The matrix-product pass at one element of a block: row `p` of the block of inputs against row `q` of the block of weights,
  summed over the 4096 features (the product is accumulated into zeros, so nothing else is added), plus entry `q` of
  the row of biases, which is broadcast down the 2048 rows.
-/
import proofs.«165721_j46548855554492_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- A row of 256 entries broadcast down 2048 rows reads, at `(p, q)`, the row's entry `q`. -/
theorem row256_apply (v : Vec Ideal S1x256 .f32) (p : Fin 2048) (q : Fin 256) :
    broadcastTo S2048x256 v broadcasts_S1x256_S2048x256 (ix2 p q) = v (ix2 (0 : Fin 1) q) :=
  broadcastTo_apply v broadcasts_S1x256_S2048x256 (ix2 p q) (ix2 (0 : Fin 1) q) fun a => match a with
    | ⟨0, _⟩ => by show 0 = if (1 : Nat) = 1 then 0 else p.val; rw [if_pos rfl]
    | ⟨1, _⟩ => by show q.val = if (256 : Nat) = 1 then 0 else q.val; rw [if_neg (by decide)]

/-- The left operand's row coordinate is the output's row. -/
theorem lhs_row (i : S2048x256.Idx) (k : dot_S2048x4096_S256x4096_S2048x256_1_1_0_0_n_n.contr.Idx) : (dot_S2048x4096_S256x4096_S2048x256_1_1_0_0_n_n.lhsIdx i k 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
/-- The right operand's row coordinate is the output's column. -/
theorem rhs_row (i : S2048x256.Idx) (k : dot_S2048x4096_S256x4096_S2048x256_1_1_0_0_n_n.contr.Idx) : (dot_S2048x4096_S256x4096_S2048x256_1_1_0_0_n_n.rhsIdx i k 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl

/-- The product into zeros at `(p, q)`: the sum over the features of row `p` of the left block times row `q` of the right block. -/
theorem mm_apply (v0 : FVec Ideal S2048x4096 .bf16) (v2 : FVec Ideal S256x4096 .bf16) (p : Fin 2048) (q : Fin 256) :
    matmul (F := Ideal) dot_S2048x4096_S256x4096_S2048x256_1_1_0_0_n_n none v0 v2 (constant S2048x256 .f32 0x00000000#32) (ix2 p q)
      = ∑ k : Fin 4096, v0 (ix2 p k) * v2 (ix2 q k) := by
  simp only [matmul]
  rw [Ideal.matmul_constant_zero_apply, ← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p q) ((contrEquiv1 dot_S2048x4096_S256x4096_S2048x256_1_1_0_0_n_n 4096 rfl rfl).symm k) = ix2 p k := funext fun a => Fin.ext (by
    match a with
    | ⟨0, _⟩ => exact lhs_row _ _
    | ⟨1, _⟩ => exact (dot_S2048x4096_S256x4096_S2048x256_1_1_0_0_n_n.lhsIdx_val_of_single rfl _ _).trans hk)
  have er : dot_S2048x4096_S256x4096_S2048x256_1_1_0_0_n_n.rhsIdx (ix2 p q) ((contrEquiv1 dot_S2048x4096_S256x4096_S2048x256_1_1_0_0_n_n 4096 rfl rfl).symm k) = ix2 q k := funext fun a => Fin.ext (by
    match a with
    | ⟨0, _⟩ => exact rhs_row _ _
    | ⟨1, _⟩ => exact (dot_S2048x4096_S256x4096_S2048x256_1_1_0_0_n_n.rhsIdx_val_of_single rfl _ _).trans hk)
  rw [el, er]

/-- The matrix-product body's stored value at `(p, q)`. -/
theorem mmPay_apply (v0 : Vec Ideal S2048x4096 .bf16) (v2 : Vec Ideal S256x4096 .bf16) (v5 : Vec Ideal S1x256 .f32) (p : Fin 2048) (q : Fin 256) :
    k1_pay1 (F := Ideal) v0 v2 v5 (ix2 p q) = (∑ k : Fin 4096, v0 (ix2 p k) * v2 (ix2 q k)) + v5 (ix2 (0 : Fin 1) q) := by
  unfold k1_pay1
  simp only [shapeCast_self]
  show matmul (F := Ideal) dot_S2048x4096_S256x4096_S2048x256_1_1_0_0_n_n none v0 v2 (constant S2048x256 .f32 0x00000000#32) (ix2 p q)
      + broadcastTo S2048x256 v5 broadcasts_S1x256_S2048x256 (ix2 p q) = _
  rw [mm_apply, row256_apply]

end Cert.KernelIdeal.Hand

end
-- ==== Proof.Blocks1.lean ====
/-
  The matrix-product pass, from blocks to the whole array. The pass walks a 4 × 43 grid; at point `t = 43 a + b` it reads
  rows `2048 a … 2048 a + 2047` of the flattened inputs (all 4096 features), rows `256 b … 256 b + 255` of the weights
  (all 4096 features) and entries `256 b … 256 b + 255` of the row of biases, and writes the 2048 × 256 block `(a, b)` of the
  result. Entry `(p, q)` of that block is input row `2048 a + p` against weight row `256 b + q` plus bias `256 b + q`:
  block `(a, b)` of ONE function of the three arrays (`Cert.QLinear.rowsTimes`). The 172 blocks cover the 8192 × 11008
  result, so the result array ends holding that function. Stated for any contents `V` of the buffers when the pass begins.
-/
import proofs.«165721_j46548855554492_2_alg».proof.Proof.Gen.KernelIdeal.Frame
import proofs.«165721_j46548855554492_2_alg».proof.Proof.Pay1
import proofs.«165721_j46548855554492_2_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem mm_zero_offsets : (![0, 0] : Fin 2 → Nat) = fun _ => 0 := funext fun a => by fin_cases a <;> rfl

/-- At point `t` the inputs are at block row `t / 43`, the weights at block row `t % 43`, the biases at block column
    `t % 43`, the result at block `(t / 43, t % 43)`. -/
theorem mm_index : ∀ t : Fin cfg1.N, win1_0.index t (0 : Fin 2) = t.val / 43 ∧ win1_0.index t (1 : Fin 2) = 0
    ∧ win1_1.index t (0 : Fin 2) = t.val % 43 ∧ win1_1.index t (1 : Fin 2) = 0
    ∧ win1_2.index t (0 : Fin 2) = 0 ∧ win1_2.index t (1 : Fin 2) = t.val % 43
    ∧ win1_3.index t (0 : Fin 2) = t.val / 43 ∧ win1_3.index t (1 : Fin 2) = t.val % 43 :=
  (by decide +kernel : ∀ t : Fin grid1.N, _)

/-- The formula of one result entry, at any indices of the three arrays with the right coordinates. -/
theorem rowsTimes_at (X : S8192x4096.Idx → EReal) (Wd : S11008x4096.Idx → EReal) (B : S1x11008.Idx → EReal) (i : S8192x11008.Idx)
    (xi : Fin 4096 → S8192x4096.Idx) (wi : Fin 4096 → S11008x4096.Idx) (bi : S1x11008.Idx)
    (hx0 : ∀ k, (xi k 0).val = (i 0).val) (hx1 : ∀ k, (xi k 1).val = k.val)
    (hw0 : ∀ k, (wi k 0).val = (i 1).val) (hw1 : ∀ k, (wi k 1).val = k.val)
    (hb0 : (bi 0).val = 0) (hb1 : (bi 1).val = (i 1).val) :
    (∑ k : Fin 4096, X (xi k) * Wd (wi k)) + B bi = Cert.QLinear.rowsTimes X Wd B i := by
  have ex : ∀ k, xi k = ix2 (i 0) k := fun k => funext fun a => Fin.ext (by
    match a with
    | ⟨0, _⟩ => exact hx0 k
    | ⟨1, _⟩ => exact hx1 k)
  have ew : ∀ k, wi k = ix2 (i 1) k := fun k => funext fun a => Fin.ext (by
    match a with
    | ⟨0, _⟩ => exact hw0 k
    | ⟨1, _⟩ => exact hw1 k)
  have eb : bi = ix2 (0 : Fin 1) (i 1) := funext fun a => Fin.ext (by
    match a with
    | ⟨0, _⟩ => exact hb0
    | ⟨1, _⟩ => exact hb1)
  rw [eb, Finset.sum_congr rfl fun k _ => by rw [ex k, ew k]]
  rfl

/-- What point `t` writes back is block `t` of the rows-times-weights-plus-bias of the arrays as the pass finds them. -/
theorem mm_flushed (c : Dev nD) (t : Fin cfg1.N) :
    (dat1 V c).flushed 3 t
      = ((cfg1.win 3).blk t).view.read (Elt Ideal) (Cert.QLinear.rowsTimes (V c main_v1) (V c main_v5) (V c main_v4)) := by
  show (cfg1.win 3).cut (grid1.coords t) ((dat1 V c).after 3 t) = _
  rw [after1_3]
  unfold out1_3
  rw [View.canon_unit_zero mm_zero_offsets]
  simp only [View.ld_unit_zero (S := S2048x4096) mm_zero_offsets, View.ld_unit_zero (S := S256x4096) mm_zero_offsets,
    View.ld_unit_zero (S := S1x256) mm_zero_offsets]
  obtain ⟨e00, e01, e10, e11, e20, e21, e30, e31⟩ := mm_index t
  funext j
  obtain ⟨p, q, rfl⟩ : ∃ (p : Fin 2048) (q : Fin 256), j = ix2 p q := ⟨j 0, j 1, eq_ix2 j⟩
  refine (mmPay_apply _ _ _ p q).trans ?_
  refine rowsTimes_at (V c main_v1) (V c main_v5) (V c main_v4) (((cfg1.win 3).blk t).view.emb (ix2 p q))
    (fun k => ((cfg1.win 0).blk t).view.emb (ix2 p k)) (fun k => ((cfg1.win 1).blk t).view.emb (ix2 q k))
    (((cfg1.win 2).blk t).view.emb (ix2 (0 : Fin 1) q)) (fun k => ?_) (fun k => ?_) (fun k => ?_) (fun k => ?_) ?_ ?_
  · show win1_0.index t (0 : Fin 2) * 2048 + 1 * p.val = win1_3.index t (0 : Fin 2) * 2048 + 1 * p.val; omega
  · show win1_0.index t (1 : Fin 2) * 4096 + 1 * k.val = k.val; omega
  · show win1_1.index t (0 : Fin 2) * 256 + 1 * q.val = win1_3.index t (1 : Fin 2) * 256 + 1 * q.val; omega
  · show win1_1.index t (1 : Fin 2) * 4096 + 1 * k.val = k.val; omega
  · show win1_2.index t (0 : Fin 2) * 1 + 1 * 0 = 0; omega
  · show win1_2.index t (1 : Fin 2) * 256 + 1 * q.val = win1_3.index t (1 : Fin 2) * 256 + 1 * q.val; omega

/-- An index of the result is in point `t`'s block iff each coordinate is in the block's range on its axis. -/
theorem mm_mem_blk (t : Fin cfg1.N) (i : S8192x11008.Idx) :
    i ∈ ((cfg1.win 3).blk t).view.set ↔ ∀ a : Fin 2, win1_3.index t a * S2048x256.size a ≤ (i a).val ∧ (i a).val < win1_3.index t a * S2048x256.size a + S2048x256.size a := by
  show i ∈ ((View.whole main_v6).slice (win1_3.rect t)).set ↔ _
  rw [View.set_slice_whole, Rect.mem_set_unit]
  exact Iff.rfl

/-- Entry `(r, o)` of the result is in the block of point `43 (r / 2048) + o / 256`. -/
theorem mm_cover (i : S8192x11008.Idx) : ∃ t : Fin cfg1.N, (cfg1.win 3).flush t = true ∧ i ∈ ((cfg1.win 3).blk t).view.set := by
  have hi0 : (i 0).val < 8192 := (i 0).isLt
  have hi1 : (i 1).val < 11008 := (i 1).isLt
  have hN : cfg1.N = 172 := N_1
  have hlt : (i 0).val / 2048 * 43 + (i 1).val / 256 < cfg1.N := by rw [hN]; omega
  refine ⟨⟨(i 0).val / 2048 * 43 + (i 1).val / 256, hlt⟩, flush1_3 _, ?_⟩
  rw [mm_mem_blk]
  obtain ⟨-, -, -, -, -, -, e30, e31⟩ := mm_index ⟨(i 0).val / 2048 * 43 + (i 1).val / 256, hlt⟩
  intro a
  match a with
  | ⟨0, _⟩ => show win1_3.index _ (0 : Fin 2) * 2048 ≤ (i 0).val ∧ (i 0).val < win1_3.index _ (0 : Fin 2) * 2048 + 2048
              rw [e30]
              show ((i 0).val / 2048 * 43 + (i 1).val / 256) / 43 * 2048 ≤ (i 0).val ∧ (i 0).val < ((i 0).val / 2048 * 43 + (i 1).val / 256) / 43 * 2048 + 2048
              omega
  | ⟨1, _⟩ => show win1_3.index _ (1 : Fin 2) * 256 ≤ (i 1).val ∧ (i 1).val < win1_3.index _ (1 : Fin 2) * 256 + 256
              rw [e31]
              show ((i 0).val / 2048 * 43 + (i 1).val / 256) % 43 * 256 ≤ (i 1).val ∧ (i 1).val < ((i 0).val / 2048 * 43 + (i 1).val / 256) % 43 * 256 + 256
              omega

/-- The result array after the pass: rows times weights plus bias, of the arrays as the pass finds them. -/
theorem mm_final (c : Dev nD) :
    (dat1 V c).arrAt 3 cfg1.N = Cert.QLinear.rowsTimes (V c main_v1) (V c main_v5) (V c main_v4) :=
  (dat1 V c).arrAt_eq_of_cover 3 _ (fun t _ => mm_flushed V c t) mm_cover

end Cert.KernelIdeal.Hand

end
-- ==== Proof.Bridge.lean ====
/-
  The two passes compose to the layer. One program flattens the inputs to 8192 rows (`(b, s) -> 2048 b + s`, the features
  kept), turns the scales and the zero points into columns and the biases into a row, dequantizes, multiplies, and reshapes
  the 8192 × 11008 product back to 4 × 2048 × 11008. A reshape keeps every element's row-major position, so flattened row
  `2048 b + s` is input `(b, s)`, entry `(o, 0)` of a column and entry `(0, o)` of the row are entry `o` of the vector, and
  result entry `(b, s, o)` is entry `(2048 b + s, o)` of the product; a change of float format is the identity on the
  extended reals. With these the staged computation is the layer, element by element.
-/
import proofs.«165721_j46548855554492_2_alg».proof.Proof.Spec
import Idealize.ShloMosaic.Lib.Pipeline.Value
import Idealize.ShloMosaic.Lib.ValueIdx

noncomputable section

namespace Cert.QLinear

open Idealize.ShloMosaic Idealize.ShloMosaic.ValueIdx
open scoped BigOperators

/-- Entry `(o, 0)` of a vector reshaped to a column is entry `o` of the vector. -/
theorem col_apply (v : (⟨1, ![11008]⟩ : Shape).Idx → EReal) (h : (⟨1, ![11008]⟩ : Shape).ShapeCasts ⟨2, ![11008, 1]⟩) (o : Fin 11008) :
    shapeCast (⟨2, ![11008, 1]⟩ : Shape) v h (ix2 o (0 : Fin 1)) = v (ix1 o) :=
  shapeCast_apply v h (ix2 o (0 : Fin 1)) (ix1 o) (by
    rw [Shape.rowMajor_val_one, Shape.rowMajor_val_two]
    show o.val = o.val * 1 + 0
    omega)

/-- Entry `(0, o)` of a vector reshaped to a row is entry `o` of the vector. -/
theorem row_apply (v : (⟨1, ![11008]⟩ : Shape).Idx → EReal) (h : (⟨1, ![11008]⟩ : Shape).ShapeCasts ⟨2, ![1, 11008]⟩) (o : Fin 11008) :
    shapeCast (⟨2, ![1, 11008]⟩ : Shape) v h (ix2 (0 : Fin 1) o) = v (ix1 o) :=
  shapeCast_apply v h (ix2 (0 : Fin 1) o) (ix1 o) (by
    rw [Shape.rowMajor_val_one, Shape.rowMajor_val_two]
    show o.val = 0 * 11008 + o.val
    omega)

/-- Row `2048 b + s` of the flattened inputs is input `(b, s)`. -/
theorem flat_apply (x : (⟨3, ![4, 2048, 4096]⟩ : Shape).Idx → EReal) (h : (⟨3, ![4, 2048, 4096]⟩ : Shape).ShapeCasts ⟨2, ![8192, 4096]⟩)
    (b : Fin 4) (s : Fin 2048) (k : Fin 4096) (r : Fin 8192) (hr : r.val = b.val * 2048 + s.val) :
    shapeCast (⟨2, ![8192, 4096]⟩ : Shape) x h (ix2 r k) = x (ix3 b s k) :=
  shapeCast_apply x h (ix2 r k) (ix3 b s k) (by
    rw [Shape.rowMajor_val_three, Shape.rowMajor_val_two]
    show (b.val * 2048 + s.val) * 4096 + k.val = r.val * 4096 + k.val
    rw [hr])

/-- The staged computation is the layer. -/
theorem layer_of_stages (x : (⟨3, ![4, 2048, 4096]⟩ : Shape).Idx → EReal) (w : (⟨2, ![11008, 4096]⟩ : Shape).Idx → BitVec 32)
    (sc z bi : (⟨1, ![11008]⟩ : Shape).Idx → EReal)
    (hx : (⟨3, ![4, 2048, 4096]⟩ : Shape).ShapeCasts ⟨2, ![8192, 4096]⟩) (hc : (⟨1, ![11008]⟩ : Shape).ShapeCasts ⟨2, ![11008, 1]⟩)
    (hr : (⟨1, ![11008]⟩ : Shape).ShapeCasts ⟨2, ![1, 11008]⟩) (ho : (⟨2, ![8192, 11008]⟩ : Shape).ShapeCasts ⟨3, ![4, 2048, 11008]⟩)
    (hlt : FTy.bf16.bits < FTy.f32.bits) :
    shapeCast (⟨3, ![4, 2048, 11008]⟩ : Shape)
        (rowsTimes (truncf (F := Ideal) .bf16 (shapeCast (⟨2, ![8192, 4096]⟩ : Shape) x hx) hlt)
          (deqCols w (shapeCast (⟨2, ![11008, 1]⟩ : Shape) sc hc) (shapeCast (⟨2, ![11008, 1]⟩ : Shape) z hc))
          (shapeCast (⟨2, ![1, 11008]⟩ : Shape) bi hr)) ho
      = layer x w sc z bi := by
  funext i
  obtain ⟨b, s, o, rfl⟩ : ∃ (b : Fin 4) (s : Fin 2048) (o : Fin 11008), i = ix3 b s o := ⟨i 0, i 1, i 2, eq_ix3 i⟩
  have hb : b.val < 4 := b.isLt
  have hs : s.val < 2048 := s.isLt
  refine (shapeCast_apply _ ho (ix3 b s o) (ix2 (⟨b.val * 2048 + s.val, by omega⟩ : Fin 8192) o) (by
    rw [Shape.rowMajor_val_two, Shape.rowMajor_val_three]
    show (b.val * 2048 + s.val) * 11008 + o.val = (b.val * 2048 + s.val) * 11008 + o.val
    rfl)).trans ?_
  show (∑ k : Fin 4096, shapeCast (⟨2, ![8192, 4096]⟩ : Shape) x hx (ix2 (⟨b.val * 2048 + s.val, by omega⟩ : Fin 8192) k)
          * ((FloatOps.sitofp (F := Ideal) .f32 (w (ix2 o k)) - shapeCast (⟨2, ![11008, 1]⟩ : Shape) z hc (ix2 o (0 : Fin 1)))
              * shapeCast (⟨2, ![11008, 1]⟩ : Shape) sc hc (ix2 o (0 : Fin 1))))
        + shapeCast (⟨2, ![1, 11008]⟩ : Shape) bi hr (ix2 (0 : Fin 1) o)
      = (∑ k : Fin 4096, x (ix3 b s k) * ((FloatOps.sitofp (F := Ideal) .f32 (w (ix2 o k)) - z (ix1 o)) * sc (ix1 o))) + bi (ix1 o)
  rw [col_apply, col_apply, row_apply]
  refine congrArg (· + bi (ix1 o)) (Finset.sum_congr rfl fun k _ => ?_)
  rw [flat_apply x hx b s k _ rfl]

end Cert.QLinear

end
-- ==== Proof.Whole.lean ====
/-
  The idealized kernel program's run, with its result named. The program is: host reshapes and a format change, the
  dequantization pass, the matrix-product pass, one host reshape. Its buffers' contents at each boundary are a fold
  through these four segments; the run ends with every buffer at the last boundary's contents (`run_held`). Reading the
  fold backwards at the result: the last reshape of the matrix-product pass's output, which is rows-times-weights-plus-bias
  of the buffers as that pass finds them — the flattened inputs and the row of biases as the host left them, the weights
  as the dequantization pass left them —, which are the dequantized weights of the integer weights and the two columns the
  host made. Composed (`Cert.QLinear.layer_of_stages`), the result array ends holding the layer of the five arguments.
-/
import proofs.«165721_j46548855554492_2_alg».proof.Proof.Gen.KernelIdeal.Frame
import proofs.«165721_j46548855554492_2_alg».proof.Proof.Blocks0
import proofs.«165721_j46548855554492_2_alg».proof.Proof.Blocks1
import proofs.«165721_j46548855554492_2_alg».proof.Proof.Bridge
import Idealize.ShloMosaic.Lib.StableHlo.Run

noncomputable section

set_option maxRecDepth 16384

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run: every buffer ends at the last boundary's contents -/

set_option backward.isDefEq.respectTransparency.types false in
/-- Every weakly fair execution of the program terminates, nothing faulting, with every buffer that outlives the passes
    at the contents the fold through the four segments gives it. -/
theorem run_held : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The host's stages -/

/-- The first pass finds the integer weights as launched. -/
theorem entry_weights (c : Dev nD) : V1 m ρ c main_arg1 = m ((c : Thread nD τ).loc main_arg1) := by
  dsimp only [V1, W1, W0]; after_results

/-- It finds the column of scales: the scales reshaped. -/
theorem entry_scales (c : Dev nD) :
    (V1 m ρ c main_v2 : S11008x1.Idx → EReal) = shapeCast S11008x1 (m ((c : Thread nD τ).loc main_arg2)) shapeCasts_S11008_S11008x1 := by
  dsimp only [V1, W1, W0]; after_results; rfl

/-- It finds the column of zero points: the zero points reshaped. -/
theorem entry_zeros (c : Dev nD) :
    (V1 m ρ c main_v3 : S11008x1.Idx → EReal) = shapeCast S11008x1 (m ((c : Thread nD τ).loc main_arg3)) shapeCasts_S11008_S11008x1 := by
  dsimp only [V1, W1, W0]; after_results; rfl

/-- The flattened inputs, in the narrower format: the inputs reshaped. -/
theorem entry_rows (c : Dev nD) :
    (V1 m ρ c main_v1 : S8192x4096.Idx → EReal)
      = truncf (F := Ideal) .bf16 (shapeCast S8192x4096 (m ((c : Thread nD τ).loc main_arg0)) shapeCasts_S4x2048x4096_S8192x4096) bitsLt_bf16_f32 := by
  dsimp only [V1, W1, W0]; after_results; rfl

/-- The row of biases: the biases reshaped. -/
theorem entry_biases (c : Dev nD) :
    (V1 m ρ c main_v4 : S1x11008.Idx → EReal) = shapeCast S1x11008 (m ((c : Thread nD τ).loc main_arg4)) shapeCasts_S11008_S1x11008 := by
  dsimp only [V1, W1, W0]; after_results; rfl

/-- The result: the matrix-product pass's output reshaped. -/
theorem result_stage (c : Dev nD) :
    (W4 m ρ c (Proc.devRef .tc main_v7) : S4x2048x11008.Idx → EReal)
      = shapeCast S4x2048x11008 (W3 m ρ c (Proc.devRef .tc main_v6) : S8192x11008.Idx → EReal) shapeCasts_S8192x11008_S4x2048x11008 := by
  dsimp only [W4]; after_results; rfl

/-! ## The fold read backwards -/

/-- The dequantization pass does not write the flattened inputs or the row of biases. -/
theorem mid_rows (c : Dev nD) : V2 m ρ c main_v1 = V1 m ρ c main_v1 := W2_of_ne m ρ c main_v1 (by decide)
theorem mid_biases (c : Dev nD) : V2 m ρ c main_v4 = V1 m ρ c main_v4 := W2_of_ne m ρ c main_v4 (by decide)

/-- The matrix-product pass finds the dequantized weights. -/
theorem mid_weights (c : Dev nD) :
    (V2 m ρ c main_v5 : S11008x4096.Idx → EReal)
      = Cert.QLinear.deqCols (m ((c : Thread nD τ).loc main_arg1))
          (shapeCast S11008x1 (m ((c : Thread nD τ).loc main_arg2)) shapeCasts_S11008_S11008x1)
          (shapeCast S11008x1 (m ((c : Thread nD τ).loc main_arg3)) shapeCasts_S11008_S11008x1) := by
  refine ((W2_arr m ρ c 3).trans (deq_final (V1 m ρ) c)).trans ?_
  rw [entry_weights, entry_scales, entry_zeros]

/-- The result array ends holding the layer of the five arguments. -/
theorem result_eq (c : Dev nD) :
    (W4 m ρ c (Proc.devRef .tc main_v7) : S4x2048x11008.Idx → EReal)
      = Cert.QLinear.layer (m ((c : Thread nD τ).loc main_arg0)) (m ((c : Thread nD τ).loc main_arg1))
          (m ((c : Thread nD τ).loc main_arg2)) (m ((c : Thread nD τ).loc main_arg3)) (m ((c : Thread nD τ).loc main_arg4)) := by
  rw [result_stage, (W3_arr m ρ c 3).trans (mm_final (V2 m ρ) c), mid_rows, mid_biases, mid_weights, entry_rows, entry_biases]
  exact Cert.QLinear.layer_of_stages _ _ _ _ _ _ _ _ _ _

/-- The run, read: the result at the layer of the arguments, the arguments unchanged. -/
theorem run : θ_run defs (onTc (τ := τ) (main (F := Ideal))) ⟨m, fun _ => 0, ρ⟩ fun r => ∀ c : Dev nD,
      r.2.mem ((c.tc : Thread nD τ).loc main_v7)
        = Cert.QLinear.layer (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c _ (mem_uc main_v7 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩)
    (run_held m ρ)

end Cert.KernelIdeal.Hand

end
-- ==== Proof.RefLayer.lean ====
/-
  The reference computes the layer. Its eleven host operations, read at the result index `(b, s, o)`: a sum over the
  4096 features of input `(b, s, k)` times the product `(w(o, k) - zero(o)) * scale(o)` — the zero points and the scales
  reach entry `(o, k)` through two broadcasts each, which read the vector at `o` —, plus the bias, which reaches `(b, s, o)`
  through two broadcasts that read the vector at `o`. That is `Cert.QLinear.layer` term for term.
-/
import proofs.«165721_j46548855554492_2_alg».proof.Proof.Gen.ReferenceIdeal.Read
import proofs.«165721_j46548855554492_2_alg».proof.Proof.Spec

noncomputable section

namespace Cert.ReferenceIdeal.RefValue

open Cert.ReferenceIdeal Cert.ReferenceIdeal.Read Idealize.ShloMosaic Idealize.ShloMosaic.ValueIdx
open scoped BigOperators

/-- The reference's last stage is the layer of the five arguments. -/
theorem ref_eq (x0 : S4x2048x4096.Idx → EReal) (x1 : S11008x4096.Idx → BitVec 32) (x2 x3 x4 : S11008.Idx → EReal) :
    val_main_v10 (F := Ideal) x0 x1 x2 x3 x4 = Cert.QLinear.layer x0 x1 x2 x3 x4 := by
  funext i
  obtain ⟨b, s, o, rfl⟩ : ∃ (b : Fin 4) (s : Fin 2048) (o : Fin 11008), i = ix3 b s o := ⟨i 0, i 1, i 2, eq_ix3 i⟩
  have e1 : ∀ k : Fin 4096, lidx_main_v7 (ix3 b s o) k = ix3 b s k := fun k => funext fun a => Fin.ext (by
    match a with
    | ⟨0, _⟩ => rfl
    | ⟨1, _⟩ => rfl
    | ⟨2, _⟩ => rfl)
  have e2 : ∀ k : Fin 4096, ridx_main_v7 (ix3 b s o) k = ix2 o k := fun k => funext fun a => Fin.ext (by
    match a with
    | ⟨0, _⟩ => rfl
    | ⟨1, _⟩ => rfl)
  have e3 : ∀ k : Fin 4096, idx_main_v1 (idx_main_v2 (ix2 o k)) = ix1 o := fun k => funext fun a => Fin.ext (by
    match a with
    | ⟨0, _⟩ => rfl)
  have e4 : ∀ k : Fin 4096, idx_main_v4 (idx_main_v5 (ix2 o k)) = ix1 o := fun k => funext fun a => Fin.ext (by
    match a with
    | ⟨0, _⟩ => rfl)
  have e5 : idx_main_v8 (idx_main_v9 (ix3 b s o)) = ix1 o := funext fun a => Fin.ext (by
    match a with
    | ⟨0, _⟩ => rfl)
  rw [val_main_v10_apply, val_main_v7_apply, val_main_v9_apply, val_main_v8_apply, e5]
  simp only [val_main_v6_apply, val_main_v3_apply, val_main_v0_apply, val_main_v2_apply, val_main_v1_apply,
    val_main_v5_apply, val_main_v4_apply, e1, e2, e3, e4]
  rfl

end Cert.ReferenceIdeal.RefValue

end
-- ==== Proof.lean ====
/-
  A quantized linear layer: the weight matrix is stored as integers with one scale and one zero point per output
  channel, and the layer is  y(b, s, o) = (sum over k of x(b, s, k) * ((w(o, k) - zero(o)) * scale(o))) + bias(o).

  The kernel program computes it in two passes over blocks — first the dequantized weights, 688 rows at a time, then the
  product of the flattened inputs with them plus the bias, 2048 × 256 entries at a time — between host reshapes; the
  reference computes it with whole-array operations. Over the extended reals, where a change of float format is the
  identity and a blocked product is the product, both end with the same function of the five arguments
  (`Cert.QLinear.layer`): the kernel program by reading its run's boundary contents backwards through the two passes
  (Proof/Whole.lean over Proof/Blocks0.lean, Proof/Blocks1.lean and Proof/Bridge.lean), the reference by reading its
  operations at an index (Proof/RefLayer.lean). No law beyond the definitions is needed: the two sums have the same terms
  in the same order, so the inputs' finiteness is never used. The idealization rewrote nothing, so there is nothing to
  preserve; the three runs terminate with their arguments unchanged.
-/
import proofs.«165721_j46548855554492_2_alg».proof.Defs
import proofs.«165721_j46548855554492_2_alg».proof.Proof.Gen.Kernel
import proofs.«165721_j46548855554492_2_alg».proof.Proof.Gen.Kernel.Skeleton
import proofs.«165721_j46548855554492_2_alg».proof.Proof.Gen.Kernel.Launch
import proofs.«165721_j46548855554492_2_alg».proof.Proof.Gen.Kernel.Points
import proofs.«165721_j46548855554492_2_alg».proof.Proof.Gen.Kernel.Frame
import proofs.«165721_j46548855554492_2_alg».proof.Proof.Gen.KernelIdeal
import proofs.«165721_j46548855554492_2_alg».proof.Proof.Gen.KernelIdeal.Skeleton
import proofs.«165721_j46548855554492_2_alg».proof.Proof.Gen.KernelIdeal.Launch
import proofs.«165721_j46548855554492_2_alg».proof.Proof.Gen.KernelIdeal.Points
import proofs.«165721_j46548855554492_2_alg».proof.Proof.Gen.KernelIdeal.Frame
import proofs.«165721_j46548855554492_2_alg».proof.Proof.Gen.ReferenceIdeal
import proofs.«165721_j46548855554492_2_alg».proof.Proof.Gen.ReferenceIdeal.Run
import proofs.«165721_j46548855554492_2_alg».proof.Proof.Gen.ReferenceIdeal.Read
import proofs.«165721_j46548855554492_2_alg».proof.Proof.Gen.Pre_finite_inputs
import proofs.«165721_j46548855554492_2_alg».proof.Proof.Whole
import proofs.«165721_j46548855554492_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer of those arguments. -/
theorem algebraic : Cert.algebraic_KernelIdeal_ReferenceIdeal := by
  intro m ρ m' ρ' _ hagree
  refine ⟨fun c => Cert.QLinear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
